-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S2x2048x5632 : Shape := ⟨3, ![2, 2048, 5632]⟩
abbrev S2x5632x2048 : Shape := ⟨3, ![2, 5632, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2x2048x5632 : S_.BroadcastsInDim S2x2048x5632 (![] : Fin 0 → Fin S2x2048x5632.rank)
  reducesTo_S2x2048x5632_S_d0_1_2 : S2x2048x5632.ReducesTo [0, 1, 2] S_
  bcast_S_S2x5632x2048 : S_.BroadcastsInDim S2x5632x2048 (![] : Fin 0 → Fin S2x5632x2048.rank)
  reducesTo_S2x5632x2048_S_d0_1_2 : S2x5632x2048.ReducesTo [0, 1, 2] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_v13 : IVec S_ 1) (main_v16 : IVec S2x5632x2048 1) : IVec S_ 1 :=
  let main_c_5 : IVec S_ 1 := constantI S_ 1 1#1
  let main_v17 : IVec S_ 1 := (fun x v => Host.reduce IntOp.andi x v reducesTo_S2x5632x2048_S_d0_1_2 h_S_) main_v16 main_c_5
  let main_v18 : IVec S_ 1 := andi main_v13 main_v17
  let main_c_6 : IVec S_ 32 := constantI S_ 32 0#32
  let main_v19 : IVec S4x4096 32 := broadcastInDim S4x4096 ![] bcast_S_S4x4096 main_c_6
  let main_v20 : IVec S4x4096 1 := cmpi .eq main_arg1 main_v19
  let main_c_7 : IVec S_ 32 := constantI S_ 32 1#32
  let main_v21 : IVec S4x4096 32 := broadcastInDim S4x4096 ![] bcast_S_S4x4096 main_c_7
  let main_v22 : IVec S4x4096 1 := cmpi .eq main_arg1 main_v21
  let main_v23 : IVec S4x4096 1 := ori main_v20 main_v22
  let main_c_8 : IVec S_ 1 := constantI S_ 1 1#1
  let main_v24 : IVec S_ 1 := (fun x v => Host.reduce IntOp.andi x v reducesTo_S4x4096_S_d0_1 h_S_) main_v23 main_c_8
  let main_v25 : IVec S_ 1 := andi main_v18 main_v24
  main_v25

def fn {F : FTy → Type} [FloatOps F] (main_arg0 : FVec F S4x4096x2048 .f32) (main_arg1 : IVec S4x4096 32) (main_arg2 : FVec F S2x2048x5632 .f32) (main_arg3 : FVec F S2x2048x5632 .f32) (main_arg4 : FVec F S2x5632x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2x2048x5632 .f32 := Host.absf main_arg2
  let main_cst_0 : FVec F S_ .f32 := constant S_ .f32 0x7F800000#32
  let main_v5 : FVec F S2x2048x5632 .f32 := broadcastInDim S2x2048x5632 ![] bcast_S_S2x2048x5632 main_cst_0
  let main_v6 : IVec S2x2048x5632 1 := cmpf .olt main_v4 main_v5
  let main_c_1 : IVec S_ 1 := constantI S_ 1 1#1
  let main_v7 : IVec S_ 1 := (fun x v => Host.reduce IntOp.andi x v reducesTo_S2x2048x5632_S_d0_1_2 h_S_) main_v6 main_c_1
  let main_v8 : IVec S_ 1 := andi main_v3 main_v7
  let main_v9 : FVec F S2x2048x5632 .f32 := Host.absf main_arg3
  let main_cst_2 : FVec F S_ .f32 := constant S_ .f32 0x7F800000#32
  let main_v10 : FVec F S2x2048x5632 .f32 := broadcastInDim S2x2048x5632 ![] bcast_S_S2x2048x5632 main_cst_2
  let main_v11 : IVec S2x2048x5632 1 := cmpf .olt main_v9 main_v10
  let main_c_3 : IVec S_ 1 := constantI S_ 1 1#1
  let main_v12 : IVec S_ 1 := (fun x v => Host.reduce IntOp.andi x v reducesTo_S2x2048x5632_S_d0_1_2 h_S_) main_v11 main_c_3
  let main_v13 : IVec S_ 1 := andi main_v8 main_v12
  let main_v14 : FVec F S2x5632x2048 .f32 := Host.absf main_arg4
  let main_cst_4 : FVec F S_ .f32 := constant S_ .f32 0x7F800000#32
  let main_v15 : FVec F S2x5632x2048 .f32 := broadcastInDim S2x5632x2048 ![] bcast_S_S2x5632x2048 main_cst_4
  let main_v16 : IVec S2x5632x2048 1 := cmpf .olt main_v14 main_v15
  fn_part1 (F := F) main_arg1 main_v13 main_v16
-- ==== Kernel.lean ====
abbrev S4x4096x2048 : Shape := ⟨3, ![4, 4096, 2048]⟩
abbrev S4x4096 : Shape := ⟨2, ![4, 4096]⟩
abbrev S2x2048x5632 : Shape := ⟨3, ![2, 2048, 5632]⟩
abbrev S2x5632x2048 : Shape := ⟨3, ![2, 5632, 2048]⟩
abbrev S16384x2048 : Shape := ⟨2, ![16384, 2048]⟩
abbrev S16384x1 : Shape := ⟨2, ![16384, 1]⟩
abbrev S512x2048 : Shape := ⟨2, ![512, 2048]⟩
abbrev S1x2048x512 : Shape := ⟨3, ![1, 2048, 512]⟩
abbrev S1x512x2048 : Shape := ⟨3, ![1, 512, 2048]⟩
abbrev S512x1 : Shape := ⟨2, ![512, 1]⟩
abbrev S2048x512 : Shape := ⟨2, ![2048, 512]⟩
abbrev S512x512 : Shape := ⟨2, ![512, 512]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S16384x2048, .f32⟩
  | .hbm, ⟨6, _⟩ => ⟨S16384x2048, .bf16⟩
  | .hbm, ⟨7, _⟩ => ⟨S16384x1, .i32⟩
  | .hbm, ⟨8, _⟩ => ⟨S2x2048x5632, .bf16⟩
  | .hbm, ⟨9, _⟩ => ⟨S2x2048x5632, .bf16⟩
  | .hbm, ⟨10, _⟩ => ⟨S2x5632x2048, .bf16⟩
  | .hbm, ⟨11, _⟩ => ⟨S16384x2048, .f32⟩
  | .hbm, ⟨12, _⟩ => ⟨S4x4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1, .i32⟩
  | .local _ .vmem, ⟨9, _⟩ => ⟨S512x1, .i32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 2, 11], ![false, false, false]⟩

def k0_cond2 (i : grid0.Coords) : BitVec 1 :=
  let arg1 : BitVec 32 := BitVec.ofNat 32 (i 1).val
  let c1_i32 : BitVec 32 := 1#32
  let v33 : BitVec 1 := Scalar.cmpi .eq arg1 c1_i32
  let arg2 : BitVec 32 := BitVec.ofNat 32 (i 2).val
  let c10_i32 : BitVec 32 := 10#32
  let v34 : BitVec 1 := Scalar.cmpi .eq arg2 c10_i32
  let v35 : BitVec 1 := Scalar.andi v33 v34
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  shapeCasts_S4x4096x2048_S16384x2048 : S4x4096x2048.ShapeCasts S16384x2048
  bitsLt_bf16_f32 : FTy.bits .bf16 < FTy.bits .f32
  shapeCasts_S4x4096_S16384x1 : S4x4096.ShapeCasts S16384x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  broadcasts_S512x1_S512x2048 : S512x1.Broadcasts S512x2048
  shapeCasts_S16384x2048_S4x4096x2048 : S16384x2048.ShapeCasts S4x4096x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S2x2048x5632.size a
  hwx0_1 : ∀ i : grid0.Coords, EltTy.bits .bf16 = 32 ∨ (Rect.block (s := S2x2048x5632) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S2x2048x5632.size a
  hwx0_2 : ∀ i : grid0.Coords, EltTy.bits .bf16 = 32 ∨ (Rect.block (s := S2x2048x5632) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S2x5632x2048.size a
  hwx0_3 : ∀ i : grid0.Coords, EltTy.bits .bf16 = 32 ∨ (Rect.block (s := S2x5632x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .i32 = 32 ∨ (Rect.block (s := S16384x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x2048.size a
  hwx0_5 : ∀ i : grid0.Coords, EltTy.bits .f32 = 32 ∨ (Rect.block (s := S16384x2048) S512x2048.size (cc0_transform_5 i) (hinb0_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S4x4096 : Shape := ⟨2, ![4, 4096]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x4096x5632 : Shape := ⟨3, ![4, 4096, 5632]⟩
abbrev S_ : Shape := ⟨0, ![]⟩
abbrev S4x4096x1 : Shape := ⟨3, ![4, 4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048x5632, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S1x5632x2048, .f32⟩
  | .hbm, ⟨10, _⟩ => ⟨S5632x2048, .f32⟩
  | .hbm, ⟨11, _⟩ => ⟨S4x4096x5632, .f32⟩
  | .hbm, ⟨12, _⟩ => ⟨S4x4096x5632, .f32⟩
  | .hbm, ⟨13, _⟩ => ⟨S4x4096x5632, .f32⟩
  | .hbm, ⟨14, _⟩ => ⟨S_, .f32⟩
  | .hbm, ⟨15, _⟩ => ⟨S4x4096x5632, .f32⟩
  | .hbm, ⟨16, _⟩ => ⟨S4x4096x5632, .f32⟩
  | .hbm, ⟨17, _⟩ => ⟨S_, .f32⟩
  | .hbm, ⟨18, _⟩ => ⟨S4x4096x5632, .f32⟩
  | .hbm, ⟨19, _⟩ => ⟨S4x4096x5632, .f32⟩
  | .hbm, ⟨20, _⟩ => ⟨S4x4096x5632, .f32⟩
  | .hbm, ⟨21, _⟩ => ⟨S4x4096x5632, .f32⟩
  | .hbm, ⟨22, _⟩ => ⟨S4x4096x5632, .f32⟩
  | .hbm, ⟨23, _⟩ => ⟨S4x4096x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S_, .f32⟩
  | .hbm, ⟨34, _⟩ => ⟨S4x4096x5632, .f32⟩
  | .hbm, ⟨35, _⟩ => ⟨S4x4096x5632, .f32⟩
  | .hbm, ⟨36, _⟩ => ⟨S_, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S4x4096x2048, .f32⟩
  | .hbm, ⟨43, _⟩ => ⟨S_, .i32⟩
  | .hbm, ⟨44, _⟩ => ⟨S4x4096, .i32⟩
  | .hbm, ⟨45, _⟩ => ⟨S4x4096, .i1⟩
  | .hbm, ⟨46, _⟩ => ⟨S4x4096x1, .i1⟩
  | .hbm, ⟨47, _⟩ => ⟨S4x4096x2048, .i1⟩
  | .hbm, ⟨48, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call2_v0 : Ref sig .tc := ⟨.hbm, 47, rfl⟩
abbrev main_v25 : Ref sig .tc := ⟨.hbm, 48, rfl⟩

abbrev nD : Nat := 1
abbrev τ : Topo := Topo.v7x

variable {F : FTy → Type} [FloatOps F]

class Facts₀ : Prop where
  slices_S2x2048x5632_S1x2048x5632_0_0_0 : S2x2048x5632.Slices ![0, 0, 0] S1x2048x5632
  shapeCasts_S1x2048x5632_S2048x5632 : S1x2048x5632.ShapeCasts S2048x5632
  slices_S2x5632x2048_S1x5632x2048_0_0_0 : S2x5632x2048.Slices ![0, 0, 0] S1x5632x2048
  shapeCasts_S1x5632x2048_S5632x2048 : S1x5632x2048.ShapeCasts S5632x2048
  bcast_S_S4x4096x5632 : S_.BroadcastsInDim S4x4096x5632 (![] : Fin 0 → Fin S4x4096x5632.rank)
  slices_S2x2048x5632_S1x2048x5632_1_0_0 : S2x2048x5632.Slices ![1, 0, 0] S1x2048x5632
  slices_S2x5632x2048_S1x5632x2048_1_0_0 : S2x5632x2048.Slices ![1, 0, 0] S1x5632x2048
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  dot_S4x4096x2048_S2048x5632_S4x4096x5632_2_0_01_1_n_n_wf : DotDims.WF S4x4096x2048 S2048x5632 S4x4096x5632 [2] [0] [0, 1] [1] [] []
  dot_S4x4096x5632_S5632x2048_S4x4096x2048_2_0_01_1_n_n_wf : DotDims.WF S4x4096x5632 S5632x2048 S4x4096x2048 [2] [0] [0, 1] [1] [] []

variable [Facts₀]

def dot_S4x4096x2048_S2048x5632_S4x4096x5632_2_0_01_1_n_n : DotDims S4x4096x2048 S2048x5632 S4x4096x5632 where
  lhsContracting := [2]
  rhsContracting := [0]
  lhsNonContracting := [0, 1]
  rhsNonContracting := [1]
  lhsBatch := []
  rhsBatch := []
  wf := dot_S4x4096x2048_S2048x5632_S4x4096x5632_2_0_01_1_n_n_wf
def dot_S4x4096x5632_S5632x2048_S4x4096x2048_2_0_01_1_n_n : DotDims S4x4096x5632 S5632x2048 S4x4096x2048 where
  lhsContracting := [2]
  rhsContracting := [0]
  lhsNonContracting := [0, 1]
  rhsNonContracting := [1]
  lhsBatch := []
  rhsBatch := []
  wf := dot_S4x4096x5632_S5632x2048_S4x4096x2048_2_0_01_1_n_n_wf

class Facts : Prop extends Facts₀ where

variable [Facts]
-- ==== Proof.MaskDomain.lean ====
/-
  The routing words are binary.

  The precondition on the five argument arrays is a conjunction: four statements that an array holds only finite
  numbers, and the statement that every routing word is `0` or `1`. It is computed as one truth value: the last
  conjunct is the conjunction, over all positions `(b, s)`, of `(word = 0) ∨ (word = 1)`, started from `true`.
  A conjunction that comes out `true` had only `true` members, a disjunction that is `true` has a `true` side,
  and an equality test that is `true` compares equal words; so from the precondition being `true` each routing
  word is `0` or is `1`. The four finiteness conjuncts are not used.
-/
import proofs.«117907_j41738492183144_1_alg».proof.Proof.Gen.Pre_finite_inputs
import proofs.«117907_j41738492183144_1_alg».proof.Pre_finite_inputs
import Idealize.ShloMosaic.Lib.ReduceAll
import Idealize.ShloMosaic.Lib.ValueIdx

namespace Cert.Routed.Domain

open Idealize.ShloMosaic Cert.Pre_finite_inputs

/-- An array with no axes has exactly one index. -/
instance subsingleton_scalar_idx : Subsingleton S_.Idx := ⟨fun _ _ => funext fun d => d.elim0⟩

/-- If the precondition holds of the five arrays, the routing word at every position `i` is `0` or `1`. -/
theorem mask_binary {F : FTy → Type} [FloatOps F] [Cert.Pre_finite_inputs.Facts]
    (a0 : FVec F S4x4096x2048 .f32) (a1 : IVec S4x4096 32) (a2 a3 : FVec F S2x2048x5632 .f32)
    (a4 : FVec F S2x5632x2048 .f32)
    (h : Cert.Pre_finite_inputs.fn (F := F) a0 a1 a2 a3 a4 = fun _ => 1#1) (i : S4x4096.Idx) :
    a1 i = 0#32 ∨ a1 i = 1#32 := by
  have h0 := congrFun h ValueIdx.ix0
  dsimp only [Cert.Pre_finite_inputs.fn, Cert.Pre_finite_inputs.fn_part1] at h0
  -- the outermost conjunction: its second member is the conjunction over all positions
  have hall := (IntOp.andi_eq_one.1 h0).2
  -- every member of that conjunction holds, the one at position `i` among them
  have hi := Host.reduce_andi_all _ _ _ _ _ hall i
  -- a disjunction of two equality tests, each against a constant word
  rcases IntOp.ori_eq_one.1 hi with hc | hc
  · exact Or.inl (IntOp.cmpi_eq.1 hc)
  · exact Or.inr (IntOp.cmpi_eq.1 hc)

end Cert.Routed.Domain
-- ==== Proof.Spec.lean ====
/-
  The mathematics of the routed SwiGLU layer, on the extended reals, with no program in sight.

  Tokens are the rows `r < 16384 = 4 · 4096` of the hidden states (row `r` is batch `r / 4096`, position
  `r % 4096`). Expert `e ∈ {0, 1}` maps a token `x` to `Σ_f h_e(f) · W_down[e, f, ·]` with
  `h_e(f) = (g · σ(g)) · u`, `g = Σ_k x_k · W_gate[e, k, f]`, `u = Σ_k x_k · W_up[e, k, f]`, `σ` the logistic
  function. The layer's value at a token is expert 0's output where the routing word is `0` and expert 1's elsewhere.

  Two ways of arranging that value are related here:
  * the sum over the `5632` hidden columns is the sum over `11` slices of `512` columns of the slice's partial sum
    (`expert_eq_sum_part`: sums over finite types are re-bracketed freely in a commutative monoid);
  * a running total that starts at `0` and, for the `22` pairs (expert, slice) in order, adds the slice's partial sum
    times the indicator `[routing word = expert]` ends — when the routing word is `0` or `1` — at the selected
    expert's output (`run_eq_select`). No distributive law is used: an indicator is `0` or `1`, and `a · 0 = 0`,
    `a · 1 = a` for EVERY extended real `a`, infinite ones included.
-/
import Idealize.ShloMosaic.PureOps.Ideal
import Idealize.ShloMosaic.PureOps.Ideal.Laws
import Idealize.ShloMosaic.Lib.ValueIdx

noncomputable section

namespace Cert.Routed

open Idealize.ShloMosaic Idealize.ShloMosaic.ValueIdx

/-- Hidden states `[4, 4096, 2048]`, the routing words `[4, 4096]`, the two up-projections `[2, 2048, 5632]`
    and the down-projection `[2, 5632, 2048]`, as functions of an index. -/
abbrev Hid := (⟨3, ![4, 4096, 2048]⟩ : Shape).Idx → EReal
abbrev Msk := (⟨2, ![4, 4096]⟩ : Shape).Idx → BitVec 32
abbrev WUp := (⟨3, ![2, 2048, 5632]⟩ : Shape).Idx → EReal
abbrev WDn := (⟨3, ![2, 5632, 2048]⟩ : Shape).Idx → EReal

/-- Token `r`'s batch. -/
abbrev rb (r : Fin 16384) : Fin 4 := ⟨r.val / 4096, by have := r.isLt; omega⟩
/-- Token `r`'s position in its batch. -/
abbrev rs (r : Fin 16384) : Fin 4096 := ⟨r.val % 4096, by omega⟩
/-- Column `f` of slice `ff` of the hidden axis. -/
abbrev fo (ff : Fin 11) (f : Fin 512) : Fin 5632 := ⟨ff.val * 512 + f.val, by have := ff.isLt; have := f.isLt; omega⟩

/-- One up-projection of token `r` by expert `e`, at hidden column `f`. -/
def proj (x : Hid) (w : WUp) (e : Fin 2) (r : Fin 16384) (f : Fin 5632) : EReal :=
  ∑ k : Fin 2048, x (ix3 (rb r) (rs r) k) * w (ix3 e k f)

/-- The gated hidden activation `(g · σ(g)) · u`. -/
def hidden (x : Hid) (wg wu : WUp) (e : Fin 2) (r : Fin 16384) (f : Fin 5632) : EReal :=
  (proj x wg e r f * Ideal.logistic (proj x wg e r f)) * proj x wu e r f

/-- Expert `e`'s output for token `r`, at model column `d`. -/
def expert (x : Hid) (wg wu : WUp) (wd : WDn) (e : Fin 2) (r : Fin 16384) (d : Fin 2048) : EReal :=
  ∑ f : Fin 5632, hidden x wg wu e r f * wd (ix3 e f d)

/-- The part of expert `e`'s output that comes from slice `ff` of the hidden axis. -/
def part (x : Hid) (wg wu : WUp) (wd : WDn) (e : Fin 2) (ff : Fin 11) (r : Fin 16384) (d : Fin 2048) : EReal :=
  ∑ f : Fin 512, hidden x wg wu e r (fo ff f) * wd (ix3 e (fo ff f) d)

/-- The layer on rows: expert 0 where the routing word is `0`, expert 1 elsewhere. -/
def rowValue (x : Hid) (mk : Msk) (wg wu : WUp) (wd : WDn) (r : Fin 16384) (d : Fin 2048) : EReal :=
  if mk (ix2 (rb r) (rs r)) = 0#32 then expert x wg wu wd 0 r d else expert x wg wu wd 1 r d

/-- The row of batch `b`, position `s`. -/
abbrev rowOf (b : Fin 4) (s : Fin 4096) : Fin 16384 := ⟨b.val * 4096 + s.val, by have := b.isLt; have := s.isLt; omega⟩

/-- The layer's value, as one function of the five argument arrays. -/
def value (x : Hid) (mk : Msk) (wg wu : WUp) (wd : WDn) : (⟨3, ![4, 4096, 2048]⟩ : Shape).Idx → EReal :=
  fun i => rowValue x mk wg wu wd (rowOf (i 0) (i 1)) (i 2)

/-- The hidden axis is eleven slices of 512 columns. -/
def sliceEquiv : Fin 11 × Fin 512 ≃ Fin 5632 where
  toFun p := fo p.1 p.2
  invFun f := (⟨f.val / 512, by have := f.isLt; omega⟩, ⟨f.val % 512, by omega⟩)
  left_inv p := by
    obtain ⟨⟨a, ha⟩, ⟨b, hb⟩⟩ := p
    refine Prod.ext (Fin.ext ?_) (Fin.ext ?_)
    · show (a * 512 + b) / 512 = a; omega
    · show (a * 512 + b) % 512 = b; omega
  right_inv f := by
    refine Fin.ext ?_
    show f.val / 512 * 512 + f.val % 512 = f.val; omega

/-- An expert's output is the sum of its eleven slices' parts. -/
theorem expert_eq_sum_part (x : Hid) (wg wu : WUp) (wd : WDn) (e : Fin 2) (r : Fin 16384) (d : Fin 2048) :
    expert x wg wu wd e r d = ∑ ff : Fin 11, part x wg wu wd e ff r d := by
  unfold expert part
  rw [← Finset.sum_product' (Finset.univ : Finset (Fin 11)) (Finset.univ : Finset (Fin 512))
    (fun ff f => hidden x wg wu e r (fo ff f) * wd (ix3 e (fo ff f) d)), Finset.univ_product_univ]
  exact (Equiv.sum_comp sliceEquiv (fun f => hidden x wg wu e r f * wd (ix3 e f d))).symm

/-! ## The running total -/

/-- Step `n` of the `704 = 32 · 22` steps works for expert `(n / 11) % 2` … -/
abbrev stepE (n : ℕ) : Fin 2 := ⟨n / 11 % 2, Nat.mod_lt _ (by decide)⟩
/-- … on slice `n % 11` of the hidden axis … -/
abbrev stepF (n : ℕ) : Fin 11 := ⟨n % 11, Nat.mod_lt _ (by decide)⟩
/-- … of the `512` rows of block `(n / 22) % 32`. -/
abbrev stepM (n : ℕ) : Fin 32 := ⟨n / 22 % 32, Nat.mod_lt _ (by decide)⟩

/-- The indicator `[routing word = expert]` as an extended real. -/
def ind (w : BitVec 32) (e : Fin 2) : EReal := if w = BitVec.ofNat 32 e.val then 1 else 0

/-- The running total after step `n` of a sequence of contributions `T`: it restarts from `0` at every step that is
    a multiple of `22`. -/
def runTotal (T : ℕ → EReal) : ℕ → EReal
  | 0 => 0 + T 0
  | n + 1 => if (n + 1) % 22 = 0 then 0 + T (n + 1) else runTotal T n + T (n + 1)

/-- Inside a group of `22` steps the running total is the plain sum of the group's contributions so far. -/
theorem runTotal_eq_sum (T : ℕ → EReal) (q j : ℕ) (hj : j < 22) :
    runTotal T (22 * q + j) = ∑ i ∈ Finset.range (j + 1), T (22 * q + i) := by
  induction j with
  | zero =>
    rw [Finset.sum_range_one, Nat.add_zero]
    cases q with
    | zero => simp [runTotal]
    | succ q =>
      rw [show 22 * (q + 1) = (22 * q + 21) + 1 by omega, runTotal,
        if_pos (by omega : (22 * q + 21 + 1) % 22 = 0), zero_add]
  | succ j ih =>
    rw [show 22 * q + (j + 1) = (22 * q + j) + 1 by omega, runTotal,
      if_neg (by omega : ¬ (22 * q + j + 1) % 22 = 0), ih (by omega), Finset.sum_range_succ _ (j + 1)]
    rfl

/-- THE LAW. For a routing word that is `0` or `1`, the `22` contributions "slice's part times the indicator of its
    expert" of a group add up to the selected expert's eleven parts: each contribution is its part (`a · 1 = a`) or
    zero (`a · 0 = 0`), whatever extended real the part is. -/
theorem run_eq_select (P : Fin 2 → Fin 11 → EReal) (w : BitVec 32) (hw : w = 0#32 ∨ w = 1#32) (q : ℕ) :
    ∑ i ∈ Finset.range 22, P (stepE (22 * q + i)) (stepF (22 * q + i)) * ind w (stepE (22 * q + i))
      = if w = 0#32 then ∑ ff : Fin 11, P 0 ff else ∑ ff : Fin 11, P 1 ff := by
  have hE0 : ∀ i : Fin 11, stepE (22 * q + i.val) = 0 := fun i => Fin.ext (by
    have := i.isLt; show (22 * q + i.val) / 11 % 2 = 0; omega)
  have hE1 : ∀ i : Fin 11, stepE (22 * q + (11 + i.val)) = 1 := fun i => Fin.ext (by
    have := i.isLt; show (22 * q + (11 + i.val)) / 11 % 2 = 1; omega)
  have hF0 : ∀ i : Fin 11, stepF (22 * q + i.val) = i := fun i => Fin.ext (by
    have := i.isLt; show (22 * q + i.val) % 11 = i.val; omega)
  have hF1 : ∀ i : Fin 11, stepF (22 * q + (11 + i.val)) = i := fun i => Fin.ext (by
    have := i.isLt; show (22 * q + (11 + i.val)) % 11 = i.val; omega)
  rw [show (22 : ℕ) = 11 + 11 from rfl, Finset.sum_range_add, Finset.sum_range, Finset.sum_range]
  simp only [hE0, hE1, hF0, hF1]
  rcases hw with rfl | rfl
  · have h0 : ind 0#32 (0 : Fin 2) = 1 := by simp [ind]
    have h1 : ind 0#32 (1 : Fin 2) = 0 := by simp [ind]
    simp only [h0, h1, mul_one, mul_zero, Finset.sum_const_zero, add_zero, if_true]
  · have h0 : ind 1#32 (0 : Fin 2) = 0 := by simp [ind]
    have h1 : ind 1#32 (1 : Fin 2) = 1 := by simp [ind]
    have hne : ¬ (1#32 : BitVec 32) = 0#32 := by decide
    simp only [h0, h1, mul_one, mul_zero, Finset.sum_const_zero, zero_add, if_neg hne]

end Cert.Routed

end
-- ==== Proof.RefValue.lean ====
/-
  The reference computes the specified value.

  The reference evaluates both experts on every token and then chooses: for expert `e` it takes slab `e` of each
  weight array, forms `g = x · W_gate[e]` and `u = x · W_up[e]` (sums over the 2048 model columns), the gated
  activation `(g · (1 / (1 + exp (−g)))) · u`, and its product with `W_down[e]` (a sum over the 5632 hidden columns);
  the result at batch `b`, position `s`, column `d` is expert 0's number where the routing word at `(b, s)` equals
  `0` and expert 1's elsewhere.

  Read index by index this is the specification's `value`:
  * `1 / (1 + exp (−g))` is the logistic function of `g` by definition, the constant `1` being the number one;
  * a slab of a weight array read as a matrix at `(k, f)` is the array at `(e, k, f)` (`(k · n + f) / n = k` and
    `(k · n + f) % n = f` for `f < n`);
  * token `(b, s)` is row `b · 4096 + s`, whose batch `(b · 4096 + s) / 4096` is `b` and whose position
    `(b · 4096 + s) % 4096` is `s`;
  * an equality test is `1` exactly when the words are equal, and a choice by a word that is `1` takes the first
    alternative, by a word that is `0` the second.
-/
import proofs.«117907_j41738492183144_1_alg».proof.Proof.Gen.ReferenceIdeal.Read
import proofs.«117907_j41738492183144_1_alg».proof.Proof.Spec
import Idealize.ShloMosaic.Lib.ValueIdx
import Idealize.ShloMosaic.Lib.Pipeline.Value
import Idealize.ShloMosaic.PureOps.Ideal.Laws
import Idealize.ShloMosaic.Lib.IdealHost
import Idealize.ShloMosaic.Lib.Affine

noncomputable section

namespace Cert.ReferenceIdeal.RefValue

open Cert.ReferenceIdeal Cert.ReferenceIdeal.Read Cert.Routed
open Idealize.ShloMosaic Idealize.ShloMosaic.ValueIdx

/-! ## Rows and coordinates -/

/-- The batch of row `b · 4096 + s` is `b`. -/
theorem rb_rowOf (b : Fin 4) (s : Fin 4096) : rb (rowOf b s) = b :=
  Fin.ext (by have := b.isLt; have := s.isLt; show (b.val * 4096 + s.val) / 4096 = b.val; omega)

/-- The position of row `b · 4096 + s` is `s`. -/
theorem rs_rowOf (b : Fin 4) (s : Fin 4096) : rs (rowOf b s) = s :=
  Fin.ext (by have := b.isLt; have := s.isLt; show (b.val * 4096 + s.val) % 4096 = s.val; omega)

/-- An index of a `[2, m, n]` array whose coordinates are `e`, and the quotient and remainder of `k · n + f` by `n`,
    is the index `(e, k, f)`. -/
theorem slab_idx {m n : Nat} (e : Fin 2) (k : Fin m) (f : Fin n) (t : (⟨3, ![2, m, n]⟩ : Shape).Idx)
    (h0 : (t 0).val = e.val) (h1 : (t 1).val = (k.val * n + f.val) / n % m) (h2 : (t 2).val = (k.val * n + f.val) % n) :
    t = ix3 e k f := by
  have hk := k.isLt
  have hf := f.isLt
  have hq : (k.val * n + f.val) / n = k.val := by
    rw [Nat.mul_comm, Nat.mul_add_div (by omega : n > 0), Nat.div_eq_of_lt hf, Nat.add_zero]
  have hr : (k.val * n + f.val) % n = f.val := by
    rw [Nat.mul_comm, Nat.mul_add_mod, Nat.mod_eq_of_lt hf]
  funext a
  match a with
  | ⟨0, _⟩ => exact Fin.ext h0
  | ⟨1, _⟩ => exact Fin.ext (h1.trans ((congrArg (· % m) hq).trans (Nat.mod_eq_of_lt hk)))
  | ⟨2, _⟩ => exact Fin.ext (h2.trans hr)

/-! ## The weight slabs, read as matrices -/

section Slabs

variable (x2 x3 : (⟨S2x2048x5632, .f32⟩ : BufTy).Contents (Elt Ideal))
variable (x4 : (⟨S2x5632x2048, .f32⟩ : BufTy).Contents (Elt Ideal))

/-- Slab 0 of the gate weights at `(k, f)`. -/
theorem gate0_read (j : S2048x5632.Idx) : val_main_v1 (F := Ideal) x2 j = x2 (ix3 0 (j 0) (j 1)) := by
  rw [val_main_v1_apply, val_main_v0_apply]
  exact congrArg x2 (slab_idx 0 (j 0) (j 1) _ rfl rfl rfl)

/-- Slab 0 of the up weights at `(k, f)`. -/
theorem up0_read (j : S2048x5632.Idx) : val_main_v3 (F := Ideal) x3 j = x3 (ix3 0 (j 0) (j 1)) := by
  rw [val_main_v3_apply, val_main_v2_apply]
  exact congrArg x3 (slab_idx 0 (j 0) (j 1) _ rfl rfl rfl)

/-- Slab 0 of the down weights at `(f, d)`. -/
theorem down0_read (j : S5632x2048.Idx) : val_main_v5 (F := Ideal) x4 j = x4 (ix3 0 (j 0) (j 1)) := by
  rw [val_main_v5_apply, val_main_v4_apply]
  exact congrArg x4 (slab_idx 0 (j 0) (j 1) _ rfl rfl rfl)

/-- Slab 1 of the gate weights at `(k, f)`. -/
theorem gate1_read (j : S2048x5632.Idx) : val_main_v12 (F := Ideal) x2 j = x2 (ix3 1 (j 0) (j 1)) := by
  rw [val_main_v12_apply, val_main_v11_apply]
  exact congrArg x2 (slab_idx 1 (j 0) (j 1) _ rfl rfl rfl)

/-- Slab 1 of the up weights at `(k, f)`. -/
theorem up1_read (j : S2048x5632.Idx) : val_main_v14 (F := Ideal) x3 j = x3 (ix3 1 (j 0) (j 1)) := by
  rw [val_main_v14_apply, val_main_v13_apply]
  exact congrArg x3 (slab_idx 1 (j 0) (j 1) _ rfl rfl rfl)

/-- Slab 1 of the down weights at `(f, d)`. -/
theorem down1_read (j : S5632x2048.Idx) : val_main_v16 (F := Ideal) x4 j = x4 (ix3 1 (j 0) (j 1)) := by
  rw [val_main_v16_apply, val_main_v15_apply]
  exact congrArg x4 (slab_idx 1 (j 0) (j 1) _ rfl rfl rfl)

end Slabs

/-! ## The three products and the gate -/

/-- The product of the hidden states with a matrix that is slab `e` of `w`, at token `(b, s)` and hidden column `f`,
    is the specification's projection. -/
theorem proj_read (x : Hid) (w : WUp) (e : Fin 2) (y : S2048x5632.Idx → EReal)
    (hy : ∀ j, y j = w (ix3 e (j 0) (j 1))) (b : Fin 4) (s : Fin 4096) (f : Fin 5632) :
    ∑ k : Fin 2048, x (lidx_main_v6 (ix3 b s f) k) * y (ridx_main_v6 (ix3 b s f) k) = proj x w e (rowOf b s) f := by
  unfold proj
  rw [rb_rowOf, rs_rowOf]
  refine Finset.sum_congr rfl fun k _ => ?_
  rw [hy]
  have hl : lidx_main_v6 (ix3 b s f) k = ix3 b s k := by
    funext a; match a with | ⟨0, _⟩ => rfl | ⟨1, _⟩ => rfl | ⟨2, _⟩ => rfl
  rw [hl]
  rfl

/-- `1 / (1 + exp (−g))` is the logistic function: the gated activation in the reference's operations is the
    specification's. -/
theorem gated (g u : Ideal .f32) :
    FloatOps.mulf
      (FloatOps.mulf g (FloatOps.hostDivf (FloatOps.ofBits (F := Ideal) .f32 0x3F800000#32)
        (FloatOps.addf (FloatOps.ofBits (F := Ideal) .f32 0x3F800000#32) (FloatOps.hostUnary .exp (FloatOps.hostNegf g))))) u
      = (g * Ideal.logistic g) * u := by
  simp only [Ideal.mulf_def, Ideal.hostDivf_def, Ideal.addf_def, Ideal.hostUnary_exp_def, Ideal.hostNegf_def,
    Ideal.negf_def, Ideal.ofBits_def, Ideal.ofBits_one_f32]
  rfl

/-- The product of gated activations with a matrix that is slab `e` of the down weights, at token `(b, s)` and model
    column `d`, is the specification's expert output. -/
theorem expert_read (x : Hid) (wg wu : WUp) (wd : WDn) (e : Fin 2) (h : S4x4096x5632.Idx → EReal)
    (y : S5632x2048.Idx → EReal)
    (hh : ∀ (b : Fin 4) (s : Fin 4096) (f : Fin 5632), h (ix3 b s f) = hidden x wg wu e (rowOf b s) f)
    (hy : ∀ j, y j = wd (ix3 e (j 0) (j 1))) (b : Fin 4) (s : Fin 4096) (d : Fin 2048) :
    ∑ k : Fin 5632, h (lidx_main_v10 (ix3 b s d) k) * y (ridx_main_v10 (ix3 b s d) k)
      = expert x wg wu wd e (rowOf b s) d := by
  unfold expert
  refine Finset.sum_congr rfl fun k _ => ?_
  rw [hy]
  have hl : lidx_main_v10 (ix3 b s d) k = ix3 b s k := by
    funext a; match a with | ⟨0, _⟩ => rfl | ⟨1, _⟩ => rfl | ⟨2, _⟩ => rfl
  rw [hl, hh]
  rfl

/-! ## The two experts -/

section Experts

variable (x0 : (⟨S4x4096x2048, .f32⟩ : BufTy).Contents (Elt Ideal))
variable (x1 : (⟨S4x4096, .i32⟩ : BufTy).Contents (Elt Ideal))
variable (x2 x3 : (⟨S2x2048x5632, .f32⟩ : BufTy).Contents (Elt Ideal))
variable (x4 : (⟨S2x5632x2048, .f32⟩ : BufTy).Contents (Elt Ideal))

/-- Expert 0's gated activation. -/
theorem hidden0_read (b : Fin 4) (s : Fin 4096) (f : Fin 5632) :
    val_main_v9 (F := Ideal) x0 x2 x3 (ix3 b s f) = hidden x0 x2 x3 0 (rowOf b s) f := by
  have hg : val_main_v6 (F := Ideal) x0 x2 (ix3 b s f) = proj x0 x2 0 (rowOf b s) f :=
    (val_main_v6_apply x0 x2 _).trans (proj_read x0 x2 0 _ (gate0_read x2) b s f)
  have hu : val_main_v8 (F := Ideal) x0 x3 (ix3 b s f) = proj x0 x3 0 (rowOf b s) f :=
    (val_main_v8_apply x0 x3 _).trans (proj_read x0 x3 0 _ (up0_read x3) b s f)
  rw [val_main_v9_apply, val_main_v7_apply, val_main_call0_v5_apply, val_main_call0_v4_apply,
    val_main_call0_cst_0_apply, val_main_call0_v3_apply, val_main_call0_v2_apply, val_main_call0_cst_apply,
    val_main_call0_v1_apply, val_main_call0_v0_apply, hg, hu]
  exact gated _ _

/-- Expert 1's gated activation. -/
theorem hidden1_read (b : Fin 4) (s : Fin 4096) (f : Fin 5632) :
    val_main_v20 (F := Ideal) x0 x2 x3 (ix3 b s f) = hidden x0 x2 x3 1 (rowOf b s) f := by
  have hg : val_main_v17 (F := Ideal) x0 x2 (ix3 b s f) = proj x0 x2 1 (rowOf b s) f :=
    (val_main_v17_apply x0 x2 _).trans (proj_read x0 x2 1 _ (gate1_read x2) b s f)
  have hu : val_main_v19 (F := Ideal) x0 x3 (ix3 b s f) = proj x0 x3 1 (rowOf b s) f :=
    (val_main_v19_apply x0 x3 _).trans (proj_read x0 x3 1 _ (up1_read x3) b s f)
  rw [val_main_v20_apply, val_main_v18_apply, val_main_call1_v5_apply, val_main_call1_v4_apply,
    val_main_call1_cst_0_apply, val_main_call1_v3_apply, val_main_call1_v2_apply, val_main_call1_cst_apply,
    val_main_call1_v1_apply, val_main_call1_v0_apply, hg, hu]
  exact gated _ _

/-- Expert 0's output. -/
theorem expert0_read (b : Fin 4) (s : Fin 4096) (d : Fin 2048) :
    val_main_v10 (F := Ideal) x0 x2 x3 x4 (ix3 b s d) = expert x0 x2 x3 x4 0 (rowOf b s) d :=
  (val_main_v10_apply x0 x2 x3 x4 _).trans
    (expert_read x0 x2 x3 x4 0 _ _ (hidden0_read x0 x2 x3) (down0_read x4) b s d)

/-- Expert 1's output. -/
theorem expert1_read (b : Fin 4) (s : Fin 4096) (d : Fin 2048) :
    val_main_v21 (F := Ideal) x0 x2 x3 x4 (ix3 b s d) = expert x0 x2 x3 x4 1 (rowOf b s) d :=
  (val_main_v21_apply x0 x2 x3 x4 _).trans
    (expert_read x0 x2 x3 x4 1 _ _ (hidden1_read x0 x2 x3) (down1_read x4) b s d)

/-- The choice's condition at `(b, s, d)` is the test "the routing word at `(b, s)` equals `0`". -/
theorem cond_read (b : Fin 4) (s : Fin 4096) (d : Fin 2048) :
    val_main_call2_v0 (F := Ideal) x1 (ix3 b s d) = IntOp.cmpi .eq (x1 (ix2 b s)) 0#32 := by
  rw [val_main_call2_v0_apply, val_main_v24_apply, val_main_v23_apply, val_main_v22_apply, val_main_c_apply]
  have hi : idx_main_v24 (idx_main_call2_v0 (ix3 b s d)) = ix2 b s := by
    funext a; match a with | ⟨0, _⟩ => rfl | ⟨1, _⟩ => rfl
  rw [hi]

/-- THE REFERENCE IS THE SPECIFICATION: index by index, the reference's result is the layer's value. -/
theorem ref_eq_value :
    Cert.ReferenceIdeal.Read.val_main_v25 (F := Ideal) x0 x1 x2 x3 x4 = Cert.Routed.value x0 x1 x2 x3 x4 := by
  funext i
  obtain ⟨b, s, d, rfl⟩ : ∃ b s d, i = ix3 b s d := ⟨i 0, i 1, i 2, eq_ix3 i⟩
  rw [val_main_v25_apply, cond_read, expert0_read, expert1_read]
  show _ = rowValue x0 x1 x2 x3 x4 (rowOf b s) d
  unfold rowValue
  rw [rb_rowOf, rs_rowOf]
  by_cases hm : x1 (ix2 b s) = 0#32
  · rw [if_pos hm, IntOp.cmpi_eq.2 hm, select_one]
  · rw [if_neg hm, eq_zero_of_ne_one (fun h => hm (IntOp.cmpi_eq.1 h)), select_zero]

end Experts

end Cert.ReferenceIdeal.RefValue

end
-- ==== Proof.Pieces.lean ====
/-
  What one grid step leaves behind, as a value.

  The kernel body keeps a running total in a 512 × 2048 scratch block. At a step it (re)starts the total from the zero
  block when the step opens a group, adds the step's contribution to it and stores it back; at the step that closes a
  group it also copies the total into the output block. Read back, the scratch block after a step — and the output
  block after a closing step — is therefore ONE function of the step's input blocks and of the total the step found:
  the body's arithmetic `k0_pay2` applied to them (to the zero block `k0_pay1` at an opening step).
-/
import proofs.«117907_j41738492183144_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step inside a group: the total found, plus the step's contribution. -/
theorem scratch_mid (c : Dev nD) (i : grid0.Coords) (arg3 : Memref sig .tc .vmem S512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x1 .i32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i) (x0 : Vec F S512x2048 .bf16) (x1 : Vec F S1x2048x512 .bf16) (x2 : Vec F S1x2048x512 .bf16) (x3 : Vec F S1x512x2048 .bf16) (x4 : Vec F S512x1 .i32) (xs0 : Vec F S512x2048 .f32) :
    sout0_B_0 c i arg3 harg3 arg4 harg4 arg5 harg5 arg6 harg6 arg7 harg7 arg8 harg8 arg9 harg9 hc0 hc1 x0 x1 x2 x3 x4 xs0 = k0_pay2 i x0 x1 x2 x3 x4 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread,
    harg7.read_unread, harg9.read_unread, View.ld_unit_zero (S := S512x2048) hz2, View.ld_unit_zero (S := S1x2048x512) hz3,
    View.ld_unit_zero (S := S1x512x2048) hz3, View.ld_unit_zero (S := S512x1) hz2]

/-- The step that closes a group leaves the same total in the scratch block … -/
theorem scratch_last (c : Dev nD) (i : grid0.Coords) (arg3 : Memref sig .tc .vmem S512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x1 .i32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i) (x0 : Vec F S512x2048 .bf16) (x1 : Vec F S1x2048x512 .bf16) (x2 : Vec F S1x2048x512 .bf16) (x3 : Vec F S1x512x2048 .bf16) (x4 : Vec F S512x1 .i32) (xs0 : Vec F S512x2048 .f32) :
    sout0_C_0 c i arg3 harg3 arg4 harg4 arg5 harg5 arg6 harg6 arg7 harg7 arg8 harg8 arg9 harg9 hc0 hc1 x0 x1 x2 x3 x4 xs0 = k0_pay2 i x0 x1 x2 x3 x4 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread,
    harg7.read_unread, harg9.read_unread, View.ld_unit_zero (S := S512x2048) hz2, View.ld_unit_zero (S := S1x2048x512) hz3,
    View.ld_unit_zero (S := S1x512x2048) hz3, View.ld_unit_zero (S := S512x1) hz2]

/-- … and copies it into the output block. -/
theorem out_last (c : Dev nD) (i : grid0.Coords) (arg3 : Memref sig .tc .vmem S512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x1 .i32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i) (x0 : Vec F S512x2048 .bf16) (x1 : Vec F S1x2048x512 .bf16) (x2 : Vec F S1x2048x512 .bf16) (x3 : Vec F S1x512x2048 .bf16) (x4 : Vec F S512x1 .i32) (xs0 : Vec F S512x2048 .f32) :
    out0_C_5 c i arg3 harg3 arg4 harg4 arg5 harg5 arg6 harg6 arg7 harg7 arg8 harg8 arg9 harg9 hc0 hc1 x0 x1 x2 x3 x4 xs0 = k0_pay2 i x0 x1 x2 x3 x4 xs0 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread,
    harg7.read_unread, harg9.read_unread, View.ld_unit_zero (S := S512x2048) hz2, View.ld_unit_zero (S := S1x2048x512) hz3,
    View.ld_unit_zero (S := S1x512x2048) hz3, View.ld_unit_zero (S := S512x1) hz2, View.readCov_unit_zero (S := S512x2048) _ hz2]

/-- The step that opens a group starts from the zero block. -/
theorem scratch_first (c : Dev nD) (i : grid0.Coords) (arg3 : Memref sig .tc .vmem S512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x1 .i32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i) (x0 : Vec F S512x2048 .bf16) (x1 : Vec F S1x2048x512 .bf16) (x2 : Vec F S1x2048x512 .bf16) (x3 : Vec F S1x512x2048 .bf16) (x4 : Vec F S512x1 .i32) :
    sout0_A_0 c i arg3 harg3 arg4 harg4 arg5 harg5 arg6 harg6 arg7 harg7 arg8 harg8 arg9 harg9 hc0 hc1 x0 x1 x2 x3 x4 = k0_pay2 i x0 x1 x2 x3 x4 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x2048) hz2]
  simp only [View.readAt_eq_ld, harg3.read_unread, harg4.read_unread, harg5.read_unread, harg6.read_unread,
    harg7.read_unread, harg9.read_unread, View.ld_unit_zero (S := S512x2048) hz2, View.ld_unit_zero (S := S1x2048x512) hz3,
    View.ld_unit_zero (S := S1x512x2048) hz3, View.ld_unit_zero (S := S512x1) hz2, View.readCov_unit_zero (S := S512x2048) _ hz2]

end Cert.KernelIdeal.Pieces

end
-- ==== Proof.Payload.lean ====
/-
  The arithmetic of one grid step, read at one element.

  A step holds a block `x` of 512 token rows (all 2048 model columns), one 512-column slice of each of an expert's two
  up-projections and the matching 512-row slice of its down-projection, and the 512 routing words of its rows. At row
  `p`, model column `d` it adds to the running total

      ( Σ_f  ((g_f · σ(g_f)) · u_f) · W_down[f, d] ) · [routing word of p = the step's expert],
      g_f = Σ_k x[p, k] · W_gate[k, f],   u_f = Σ_k x[p, k] · W_up[k, f].

  On the extended reals a matrix product into a zero accumulator is that plain sum, a change of float format is the
  identity, and the 0/1 integer of a comparison converts to the real 0 or 1.
-/
import proofs.«117907_j41738492183144_1_alg».proof.Proof.Gen.KernelIdeal.Skeleton
import proofs.«117907_j41738492183144_1_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

theorem up_lhs0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
theorem up_lhs1 (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem up_rhs0 (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q
theorem up_rhs1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

theorem down_lhs0 (i : S512x2048.Idx) (q : dot_S512x512_S512x2048_S512x2048_1_0_0_1_n_n.contr.Idx) : (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl
theorem down_lhs1 (i : S512x2048.Idx) (q : dot_S512x512_S512x2048_S512x2048_1_0_0_1_n_n.contr.Idx) : (dot_S512x512_S512x2048_S512x2048_1_0_0_1_n_n.lhsIdx i q 1).val = (q ⟨0, by decide⟩).val :=
  dot_S512x512_S512x2048_S512x2048_1_0_0_1_n_n.lhsIdx_val_of_single rfl i q
theorem down_rhs0 (i : S512x2048.Idx) (q : dot_S512x512_S512x2048_S512x2048_1_0_0_1_n_n.contr.Idx) : (dot_S512x512_S512x2048_S512x2048_1_0_0_1_n_n.rhsIdx i q 0).val = (q ⟨0, by decide⟩).val :=
  dot_S512x512_S512x2048_S512x2048_1_0_0_1_n_n.rhsIdx_val_of_single rfl i q
theorem down_rhs1 (i : S512x2048.Idx) (q : dot_S512x512_S512x2048_S512x2048_1_0_0_1_n_n.contr.Idx) : (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The first two matrix products: `[512, 2048] × [2048, 512]` into zero is, at `(p, f)`, the sum over the 2048
    contracted columns. -/
theorem up_product (l : FVec Ideal S512x2048 .bf16) (r : FVec Ideal S2048x512 .bf16) (p f : Fin 512) :
    matmul dot_S512x2048_S2048x512_S512x512_1_0_0_1_n_n none l r (constant S512x512 .f32 0x00000000#32) (ix2 p f)
      = ∑ k : Fin 2048, l (ix2 p k) * r (ix2 k f) := by
  refine (Ideal.matmul_constant_zero_apply dot_S512x2048_S2048x512_S512x512_1_0_0_1_n_n none l r (ix2 p f)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p f) ((contrEquiv1 dot_S512x2048_S2048x512_S512x512_1_0_0_1_n_n 2048 rfl rfl).symm k) = ix2 p k :=
    funext fun a => Fin.ext (by
      match a with
      | ⟨0, _⟩ => exact up_lhs0 _ _
      | ⟨1, _⟩ => exact (up_lhs1 _ _).trans hk)
  have er : dot_S512x2048_S2048x512_S512x512_1_0_0_1_n_n.rhsIdx (ix2 p f) ((contrEquiv1 dot_S512x2048_S2048x512_S512x512_1_0_0_1_n_n 2048 rfl rfl).symm k) = ix2 k f :=
    funext fun a => Fin.ext (by
      match a with
      | ⟨0, _⟩ => exact (up_rhs0 _ _).trans hk
      | ⟨1, _⟩ => exact up_rhs1 _ _)
  rw [el, er]

/-- The third matrix product: `[512, 512] × [512, 2048]` into zero is, at `(p, d)`, the sum over the 512 hidden
    columns of the slice. -/
theorem down_product (l : FVec Ideal S512x512 .bf16) (r : FVec Ideal S512x2048 .bf16) (p : Fin 512) (d : Fin 2048) :
    matmul dot_S512x512_S512x2048_S512x2048_1_0_0_1_n_n none l r (constant S512x2048 .f32 0x00000000#32) (ix2 p d)
      = ∑ f : Fin 512, l (ix2 p f) * r (ix2 f d) := by
  refine (Ideal.matmul_constant_zero_apply dot_S512x512_S512x2048_S512x2048_1_0_0_1_n_n none l r (ix2 p d)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p d) ((contrEquiv1 dot_S512x512_S512x2048_S512x2048_1_0_0_1_n_n 512 rfl rfl).symm k) = ix2 p k :=
    funext fun a => Fin.ext (by
      match a with
      | ⟨0, _⟩ => exact down_lhs0 _ _
      | ⟨1, _⟩ => exact (down_lhs1 _ _).trans hk)
  have er : dot_S512x512_S512x2048_S512x2048_1_0_0_1_n_n.rhsIdx (ix2 p d) ((contrEquiv1 dot_S512x512_S512x2048_S512x2048_1_0_0_1_n_n 512 rfl rfl).symm k) = ix2 k d :=
    funext fun a => Fin.ext (by
      match a with
      | ⟨0, _⟩ => exact (down_rhs0 _ _).trans hk
      | ⟨1, _⟩ => exact down_rhs1 _ _)
  rw [el, er]

/-- The 0/1 word of an equality test, widened and converted, is the real `1` where the words agree and `0` where
    they differ. -/
theorem indicator_word (w e : BitVec 32) :
    (FloatOps.sitofp (F := Ideal) .f32 ((IntOp.cmpi .eq w e).setWidth 32) : EReal) = if w = e then 1 else 0 := by
  by_cases h : w = e
  · rw [if_pos h, IntOp.cmpi_eq.mpr h]
    show ((((1#1 : BitVec 1).setWidth 32).toInt : ℝ) : EReal) = 1
    rw [show ((1#1 : BitVec 1).setWidth 32).toInt = 1 from by decide]
    simp
  · have h0 : IntOp.cmpi .eq w e = 0#1 := eq_zero_of_ne_one fun h1 => h (IntOp.cmpi_eq.mp h1)
    rw [if_neg h, h0]
    show ((((0#1 : BitVec 1).setWidth 32).toInt : ℝ) : EReal) = 0
    rw [show ((0#1 : BitVec 1).setWidth 32).toInt = 0 from by decide]
    simp

/-- One up-projection inside a step: row `p` of the token block against column `f` of a weight slice. -/
def blockProj (x0 : FVec Ideal S512x2048 .bf16) (w : FVec Ideal S1x2048x512 .bf16) (p f : Fin 512) : EReal :=
  ∑ k : Fin 2048, x0 (ix2 p k) * w (ix3 (0 : Fin 1) k f)

/-- THE STEP, at one element. -/
theorem step_apply (i : grid0.Coords) (x0 : FVec Ideal S512x2048 .bf16) (x1 x2 : FVec Ideal S1x2048x512 .bf16)
    (x3 : FVec Ideal S1x512x2048 .bf16) (x4 : IVec S512x1 32) (acc : FVec Ideal S512x2048 .f32) (p : Fin 512) (d : Fin 2048) :
    k0_pay2 (F := Ideal) i x0 x1 x2 x3 x4 acc (ix2 p d)
      = acc (ix2 p d)
        + (∑ f : Fin 512, ((blockProj x0 x1 p f * Ideal.logistic (blockProj x0 x1 p f)) * blockProj x0 x2 p f)
              * x3 (ix3 (0 : Fin 1) f d))
          * (if x4 (ix2 p (0 : Fin 1)) = BitVec.ofNat 32 (i 1).val then 1 else 0) := by
  unfold k0_pay2
  dsimp only
  rw [shapeCast_self, addf_apply, mulf_apply]
  refine congrArg₂ (· + ·) rfl (congrArg₂ (· * ·) ?_ ?_)
  · refine (down_product _ _ p d).trans (Finset.sum_congr rfl fun f _ => ?_)
    rw [truncf_apply, mulf_apply, mulf_apply, shapeCast_1ab_ab_apply]
    refine congrArg₂ (· * ·) (congrArg₂ (· * ·) (congrArg₂ (· * ·) ?_ ?_) ?_) rfl
    · refine (up_product _ _ p f).trans (Finset.sum_congr rfl fun k _ => ?_)
      rw [shapeCast_self, shapeCast_1ab_ab_apply]
    · show Ideal.logistic _ = _
      refine congrArg Ideal.logistic ?_
      refine (up_product _ _ p f).trans (Finset.sum_congr rfl fun k _ => ?_)
      rw [shapeCast_self, shapeCast_1ab_ab_apply]
    · refine (up_product _ _ p f).trans (Finset.sum_congr rfl fun k _ => ?_)
      rw [shapeCast_self, shapeCast_1ab_ab_apply]
  · refine (broadcastTo_apply _ _ (ix2 p d) (ix2 p (0 : Fin 1)) (fun a => ?_)).trans ?_
    · match a with
      | ⟨0, _⟩ => rfl
      | ⟨1, _⟩ => rfl
    · rw [sitofp_apply, extui_apply]
      show FloatOps.sitofp (F := Ideal) .f32 ((IntOp.cmpi .eq (shapeCast S512x1 x4 _ (ix2 p (0 : Fin 1))) (BitVec.ofNat 32 (i 1).val)).setWidth 32) = _
      rw [shapeCast_self]
      exact indicator_word _ _

end Cert.KernelIdeal.Payload

end
-- ==== Proof.Blocks.lean ====
/-
  What a grid step's input blocks hold, in terms of the five argument arrays.

  Step `n` of the 704 works on token block `n / 22`, expert `(n / 11) % 2` and hidden slice `n % 11`. Before the
  steps run, the hidden states are flattened to 16384 rows and every float array changes format — the identity on
  extended reals. So row `p` of the step's token block is token `(n / 22) · 512 + p`, its weight blocks are the
  expert's slices, and its routing words are those of its tokens.
-/
import proofs.«117907_j41738492183144_1_alg».proof.Proof.Gen.KernelIdeal.Frame
import proofs.«117907_j41738492183144_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.Routed

variable (m : (ℓ : Loc nD τ sig) → Buf (Elt Ideal) ℓ)

/-- Row `p` of the token block of step `n`, as a token. -/
abbrev blockRow (n : ℕ) (p : Fin 512) : Fin 16384 := ⟨n / 22 % 32 * 512 + p.val, by have := p.isLt; omega⟩

theorem point_lt (t : Fin cfg0.N) : t.val < 704 := lt_of_lt_of_eq t.isLt N_0

/-! ## The arrays as the steps find them -/

theorem entry_tokens (c : Dev nD) : (V m c main_v1 : S16384x2048.Idx → EReal)
    = (truncf .bf16 (shapeCast S16384x2048 (m ((c : Thread nD τ).loc main_arg0)) shapeCasts_S4x4096x2048_S16384x2048 : FVec Ideal S16384x2048 .f32) bitsLt_bf16_f32 : FVec Ideal S16384x2048 .bf16) := by
  show StableHlo.after hostOps0 (fun b => m (c, b)) (Proc.devRef .tc main_v1) = _
  after_results <;> rfl

theorem entry_words (c : Dev nD) : (V m c main_v2 : S16384x1.Idx → BitVec 32)
    = shapeCast S16384x1 (m ((c : Thread nD τ).loc main_arg1)) shapeCasts_S4x4096_S16384x1 := by
  show StableHlo.after hostOps0 (fun b => m (c, b)) (Proc.devRef .tc main_v2) = _
  after_results <;> rfl

theorem entry_gate (c : Dev nD) : (V m c main_v3 : S2x2048x5632.Idx → EReal)
    = (truncf .bf16 (m ((c : Thread nD τ).loc main_arg2) : FVec Ideal S2x2048x5632 .f32) bitsLt_bf16_f32 : FVec Ideal S2x2048x5632 .bf16) := by
  show StableHlo.after hostOps0 (fun b => m (c, b)) (Proc.devRef .tc main_v3) = _
  after_results <;> rfl

theorem entry_up (c : Dev nD) : (V m c main_v4 : S2x2048x5632.Idx → EReal)
    = (truncf .bf16 (m ((c : Thread nD τ).loc main_arg3) : FVec Ideal S2x2048x5632 .f32) bitsLt_bf16_f32 : FVec Ideal S2x2048x5632 .bf16) := by
  show StableHlo.after hostOps0 (fun b => m (c, b)) (Proc.devRef .tc main_v4) = _
  after_results <;> rfl

theorem entry_down (c : Dev nD) : (V m c main_v5 : S2x5632x2048.Idx → EReal)
    = (truncf .bf16 (m ((c : Thread nD τ).loc main_arg4) : FVec Ideal S2x5632x2048 .f32) bitsLt_bf16_f32 : FVec Ideal S2x5632x2048 .bf16) := by
  show StableHlo.after hostOps0 (fun b => m (c, b)) (Proc.devRef .tc main_v5) = _
  after_results <;> rfl

/-! ## Where each window's block sits at a step (the printed index maps, decided over the 704 steps) -/

theorem index_tokens : ∀ t : Fin cfg0.N, win0_0.index t (0 : Fin 2) = t.val / 22 ∧ win0_0.index t (1 : Fin 2) = 0 :=
  (by decide +kernel : ∀ t : Fin grid0.N, _)
theorem index_gate : ∀ t : Fin cfg0.N, win0_1.index t (0 : Fin 3) = t.val / 11 % 2 ∧ win0_1.index t (1 : Fin 3) = 0
    ∧ win0_1.index t (2 : Fin 3) = t.val % 11 :=
  (by decide +kernel : ∀ t : Fin grid0.N, _)
theorem index_up : ∀ t : Fin cfg0.N, win0_2.index t (0 : Fin 3) = t.val / 11 % 2 ∧ win0_2.index t (1 : Fin 3) = 0
    ∧ win0_2.index t (2 : Fin 3) = t.val % 11 :=
  (by decide +kernel : ∀ t : Fin grid0.N, _)
theorem index_down : ∀ t : Fin cfg0.N, win0_3.index t (0 : Fin 3) = t.val / 11 % 2 ∧ win0_3.index t (1 : Fin 3) = t.val % 11
    ∧ win0_3.index t (2 : Fin 3) = 0 :=
  (by decide +kernel : ∀ t : Fin grid0.N, _)
theorem index_words : ∀ t : Fin cfg0.N, win0_4.index t (0 : Fin 2) = t.val / 22 ∧ win0_4.index t (1 : Fin 2) = 0 :=
  (by decide +kernel : ∀ t : Fin grid0.N, _)
theorem index_out : ∀ t : Fin cfg0.N, win0_5.index t (0 : Fin 2) = t.val / 22 ∧ win0_5.index t (1 : Fin 2) = 0 :=
  (by decide +kernel : ∀ t : Fin grid0.N, _)
/-- The step's expert, as the body reads it off the grid. -/
theorem coord_expert : ∀ t : Fin cfg0.N, (grid0.coords t 1).val = t.val / 11 % 2 :=
  (by decide +kernel : ∀ t : Fin grid0.N, _)

/-! ## The blocks, element by element -/

theorem tokens_block (c : Dev nD) (t : Fin cfg0.N) (p : Fin 512) (k : Fin 2048) :
    iblk m c 0 t (ix2 p k)
      = m ((c : Thread nD τ).loc main_arg0) (ix3 (rb (blockRow t.val p)) (rs (blockRow t.val p)) k) := by
  have hN := point_lt t
  have hp := p.isLt
  unfold iblk
  rw [View.read_apply]
  show V m c main_v1 _ = _
  rw [entry_tokens, truncf_apply]
  refine shapeCast_apply (s := S4x4096x2048) (t := S16384x2048) _ _ _ _ ?_
  rw [Shape.rowMajor_val_three, Shape.rowMajor_val_two]
  show ((t.val / 22 % 32 * 512 + p.val) / 4096 * 4096 + (t.val / 22 % 32 * 512 + p.val) % 4096) * 2048 + k.val
    = (win0_0.index t (0 : Fin 2) * 512 + 1 * p.val) * 2048 + (win0_0.index t (1 : Fin 2) * 2048 + 1 * k.val)
  rw [(index_tokens t).1, (index_tokens t).2]
  omega

theorem words_block (c : Dev nD) (t : Fin cfg0.N) (p : Fin 512) :
    iblk m c 4 t (ix2 p (0 : Fin 1))
      = m ((c : Thread nD τ).loc main_arg1) (ix2 (rb (blockRow t.val p)) (rs (blockRow t.val p))) := by
  have hN := point_lt t
  have hp := p.isLt
  unfold iblk
  rw [View.read_apply]
  show V m c main_v2 _ = _
  rw [entry_words]
  refine shapeCast_apply (s := S4x4096) (t := S16384x1) _ _ _ _ ?_
  rw [Shape.rowMajor_val_two, Shape.rowMajor_val_two]
  show (t.val / 22 % 32 * 512 + p.val) / 4096 * 4096 + (t.val / 22 % 32 * 512 + p.val) % 4096
    = (win0_4.index t (0 : Fin 2) * 512 + 1 * p.val) * 1 + (win0_4.index t (1 : Fin 2) * 1 + 1 * 0)
  rw [(index_words t).1, (index_words t).2]
  omega

theorem gate_block (c : Dev nD) (t : Fin cfg0.N) (k : Fin 2048) (f : Fin 512) :
    iblk m c 1 t (ix3 (0 : Fin 1) k f)
      = m ((c : Thread nD τ).loc main_arg2) (ix3 (stepE t.val) k (fo (stepF t.val) f)) := by
  unfold iblk
  rw [View.read_apply]
  show V m c main_v3 _ = _
  rw [entry_gate, truncf_apply]
  refine congrArg _ (funext fun a => Fin.ext ?_)
  match a with
  | ⟨0, _⟩ => show win0_1.index t (0 : Fin 3) * 1 + 1 * 0 = t.val / 11 % 2; rw [(index_gate t).1]; omega
  | ⟨1, _⟩ => show win0_1.index t (1 : Fin 3) * 2048 + 1 * k.val = k.val; rw [(index_gate t).2.1]; omega
  | ⟨2, _⟩ => show win0_1.index t (2 : Fin 3) * 512 + 1 * f.val = t.val % 11 * 512 + f.val; rw [(index_gate t).2.2]; omega

theorem up_block (c : Dev nD) (t : Fin cfg0.N) (k : Fin 2048) (f : Fin 512) :
    iblk m c 2 t (ix3 (0 : Fin 1) k f)
      = m ((c : Thread nD τ).loc main_arg3) (ix3 (stepE t.val) k (fo (stepF t.val) f)) := by
  unfold iblk
  rw [View.read_apply]
  show V m c main_v4 _ = _
  rw [entry_up, truncf_apply]
  refine congrArg _ (funext fun a => Fin.ext ?_)
  match a with
  | ⟨0, _⟩ => show win0_2.index t (0 : Fin 3) * 1 + 1 * 0 = t.val / 11 % 2; rw [(index_up t).1]; omega
  | ⟨1, _⟩ => show win0_2.index t (1 : Fin 3) * 2048 + 1 * k.val = k.val; rw [(index_up t).2.1]; omega
  | ⟨2, _⟩ => show win0_2.index t (2 : Fin 3) * 512 + 1 * f.val = t.val % 11 * 512 + f.val; rw [(index_up t).2.2]; omega

theorem down_block (c : Dev nD) (t : Fin cfg0.N) (f : Fin 512) (d : Fin 2048) :
    iblk m c 3 t (ix3 (0 : Fin 1) f d)
      = m ((c : Thread nD τ).loc main_arg4) (ix3 (stepE t.val) (fo (stepF t.val) f) d) := by
  unfold iblk
  rw [View.read_apply]
  show V m c main_v5 _ = _
  rw [entry_down, truncf_apply]
  refine congrArg _ (funext fun a => Fin.ext ?_)
  match a with
  | ⟨0, _⟩ => show win0_3.index t (0 : Fin 3) * 1 + 1 * 0 = t.val / 11 % 2; rw [(index_down t).1]; omega
  | ⟨1, _⟩ => show win0_3.index t (1 : Fin 3) * 512 + 1 * f.val = t.val % 11 * 512 + f.val; rw [(index_down t).2.1]; omega
  | ⟨2, _⟩ => show win0_3.index t (2 : Fin 3) * 2048 + 1 * d.val = d.val; rw [(index_down t).2.2]; omega

end Cert.KernelIdeal.Blocks

end
-- ==== Proof.Accum.lean ====
/-
  The running total, step by step, and what a group's closing step writes out.

  For a fixed row `p` and column `d` of a token block, step `n` contributes

      T(n) = part(expert of n, slice of n, token (n / 22) · 512 + p, d) · [routing word of that token = expert of n].

  The scratch block after step `n` holds, at `(p, d)`, the running total of the `T`s of the group of 22 steps that
  `n` belongs to (induction on `n`: an opening step starts from the zero block, every other step adds to what the
  step before left). The closing step of a group copies the total out; for a routing word that is `0` or `1` the
  total of a whole group is the selected expert's output for the token.
-/
import proofs.«117907_j41738492183144_1_alg».proof.Proof.Pieces
import proofs.«117907_j41738492183144_1_alg».proof.Proof.Payload
import proofs.«117907_j41738492183144_1_alg».proof.Proof.Blocks
import proofs.«117907_j41738492183144_1_alg».proof.Proof.Spec

noncomputable section

open Idealize.ShloMosaic Idealize.ShloMosaic.TcCoe Idealize.SL.Sem Idealize.ShloMosaic.ValueIdx

namespace Cert.KernelIdeal.Accum

open Cert.KernelIdeal Cert.KernelIdeal.Gen Cert.Routed Cert.KernelIdeal.Blocks

variable (m : (ℓ : Loc nD τ sig) → Buf (Elt Ideal) ℓ)

/-- The five argument arrays on core `c`. -/
abbrev hid (c : Dev nD) : Hid := m ((c : Thread nD τ).loc main_arg0)
abbrev msk (c : Dev nD) : Msk := m ((c : Thread nD τ).loc main_arg1)
abbrev wgt (c : Dev nD) : WUp := m ((c : Thread nD τ).loc main_arg2)
abbrev wup (c : Dev nD) : WUp := m ((c : Thread nD τ).loc main_arg3)
abbrev wdn (c : Dev nD) : WDn := m ((c : Thread nD τ).loc main_arg4)

/-- Step `n`'s contribution at row `p`, column `d` of its token block. -/
def contrib (c : Dev nD) (p : Fin 512) (d : Fin 2048) (n : ℕ) : EReal :=
  part (hid m c) (wgt m c) (wup m c) (wdn m c) (stepE n) (stepF n) (blockRow n p) d
    * ind (msk m c (ix2 (rb (blockRow n p)) (rs (blockRow n p)))) (stepE n)

theorem gate_proj (c : Dev nD) (t : Fin cfg0.N) (p f : Fin 512) :
    Payload.blockProj (iblk m c 0 t) (iblk m c 1 t) p f
      = proj (hid m c) (wgt m c) (stepE t.val) (blockRow t.val p) (fo (stepF t.val) f) := by
  unfold Payload.blockProj proj
  refine Finset.sum_congr rfl fun k _ => ?_
  exact congrArg₂ (· * ·) (tokens_block m c t p k) (gate_block m c t k f)

theorem up_proj (c : Dev nD) (t : Fin cfg0.N) (p f : Fin 512) :
    Payload.blockProj (iblk m c 0 t) (iblk m c 2 t) p f
      = proj (hid m c) (wup m c) (stepE t.val) (blockRow t.val p) (fo (stepF t.val) f) := by
  unfold Payload.blockProj proj
  refine Finset.sum_congr rfl fun k _ => ?_
  exact congrArg₂ (· * ·) (tokens_block m c t p k) (up_block m c t k f)

/-- One step, in terms of the argument arrays: the total found plus the step's contribution. -/
theorem step_at (c : Dev nD) (t : Fin cfg0.N) (acc : FVec Ideal S512x2048 .f32) (p : Fin 512) (d : Fin 2048) :
    k0_pay2 (F := Ideal) (grid0.coords t) (iblk m c 0 t) (iblk m c 1 t) (iblk m c 2 t) (iblk m c 3 t) (iblk m c 4 t) acc (ix2 p d)
      = acc (ix2 p d) + contrib m c p d t.val := by
  refine (Payload.step_apply (grid0.coords t) (iblk m c 0 t) (iblk m c 1 t) (iblk m c 2 t) (iblk m c 3 t) (iblk m c 4 t) acc p d).trans ?_
  refine congrArg (acc (ix2 p d) + ·) ?_
  unfold contrib part Routed.hidden
  refine congrArg₂ (· * ·) (Finset.sum_congr rfl fun f _ => ?_) ?_
  · rw [gate_proj, up_proj, down_block m c t f d]
  · rw [words_block m c t p, coord_expert t]
    rfl

/-- The zero block. -/
theorem zero_block (p : Fin 512) (d : Fin 2048) : k0_pay1 (F := Ideal) (ix2 p d) = 0 := by
  unfold k0_pay1
  rw [shapeCast_self]
  exact Ideal.ofBits_zero_f32

/-! ## What each kind of step leaves -/

theorem scratch_open (c : Dev nD) (t : Fin cfg0.N) (h0 : t.val % 22 = 0) (h1 : ¬t.val % 22 = 21) :
    (outsAt0 m c t.val t.isLt).2 = k0_pay2 (F := Ideal) (grid0.coords t) (iblk m c 0 t) (iblk m c 1 t) (iblk m c 2 t) (iblk m c 3 t) (iblk m c 4 t) (k0_pay1 (F := Ideal)) := by
  rw [outsAt0_A m c t h0 h1]
  dsimp only
  exact Pieces.scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

theorem scratch_inner (c : Dev nD) (t : Fin cfg0.N) (h0 : ¬t.val % 22 = 0) (h1 : ¬t.val % 22 = 21) :
    (outsAt0 m c t.val t.isLt).2 = k0_pay2 (F := Ideal) (grid0.coords t) (iblk m c 0 t) (iblk m c 1 t) (iblk m c 2 t) (iblk m c 3 t) (iblk m c 4 t)
      (outsAt0 m c (t.val - 1) (Nat.lt_of_le_of_lt (Nat.sub_le _ _) t.isLt)).2 := by
  rw [outsAt0_B m c t h0 h1]
  dsimp only
  exact Pieces.scratch_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t)
    (outsAt0 m c (t.val - 1) (Nat.lt_of_le_of_lt (Nat.sub_le _ _) t.isLt)).2

theorem scratch_close (c : Dev nD) (t : Fin cfg0.N) (h0 : ¬t.val % 22 = 0) (h1 : t.val % 22 = 21) :
    (outsAt0 m c t.val t.isLt).2 = k0_pay2 (F := Ideal) (grid0.coords t) (iblk m c 0 t) (iblk m c 1 t) (iblk m c 2 t) (iblk m c 3 t) (iblk m c 4 t)
      (outsAt0 m c (t.val - 1) (Nat.lt_of_le_of_lt (Nat.sub_le _ _) t.isLt)).2 := by
  rw [outsAt0_C m c t h0 h1]
  dsimp only
  exact Pieces.scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

theorem out_close (c : Dev nD) (t : Fin cfg0.N) (h0 : ¬t.val % 22 = 0) (h1 : t.val % 22 = 21) :
    (outsAt0 m c t.val t.isLt).1 = k0_pay2 (F := Ideal) (grid0.coords t) (iblk m c 0 t) (iblk m c 1 t) (iblk m c 2 t) (iblk m c 3 t) (iblk m c 4 t)
      (outsAt0 m c (t.val - 1) (Nat.lt_of_le_of_lt (Nat.sub_le _ _) t.isLt)).2 := by
  rw [outsAt0_C m c t h0 h1]
  dsimp only
  exact Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

/-! ## The scratch block is the running total -/

theorem scratch_eq (c : Dev nD) (p : Fin 512) (d : Fin 2048) :
    ∀ (n : ℕ) (h : n < cfg0.N), (outsAt0 m c n h).2 (ix2 p d) = runTotal (contrib m c p d) n
  | 0, h => by
    refine (congrFun (scratch_open m c ⟨0, h⟩ (Nat.zero_mod _) (by dsimp only; omega)) (ix2 p d)).trans ?_
    rw [step_at m c ⟨0, h⟩ _ p d, zero_block, runTotal]
  | n + 1, h => by
    have hN : n + 1 < 704 := lt_of_lt_of_eq h N_0
    by_cases h0 : (n + 1) % 22 = 0
    · refine (congrFun (scratch_open m c ⟨n + 1, h⟩ h0 (by dsimp only; omega)) (ix2 p d)).trans ?_
      rw [step_at m c ⟨n + 1, h⟩ _ p d, zero_block, runTotal, if_pos h0]
    · have hr : runTotal (contrib m c p d) (n + 1) = runTotal (contrib m c p d) n + contrib m c p d (n + 1) := by
        rw [runTotal, if_neg h0]
      have ih := scratch_eq c p d n (Nat.lt_of_succ_lt h)
      by_cases h1 : (n + 1) % 22 = 21
      · refine (congrFun (scratch_close m c ⟨n + 1, h⟩ h0 h1) (ix2 p d)).trans ?_
        rw [step_at m c ⟨n + 1, h⟩ _ p d, hr]
        exact congrArg (· + contrib m c p d (n + 1)) ih
      · refine (congrFun (scratch_inner m c ⟨n + 1, h⟩ h0 h1) (ix2 p d)).trans ?_
        rw [step_at m c ⟨n + 1, h⟩ _ p d, hr]
        exact congrArg (· + contrib m c p d (n + 1)) ih

/-- THE RESULT OF A GROUP. At a closing step the output block holds, for a routing word that is `0` or `1`, the
    selected expert's output of the block's tokens. -/
theorem out_value (hmask : ∀ (c : Dev nD) (i : S4x4096.Idx), msk m c i = 0#32 ∨ msk m c i = 1#32)
    (c : Dev nD) (t : Fin cfg0.N) (h21 : t.val % 22 = 21) (p : Fin 512) (d : Fin 2048) :
    (outsAt0 m c t.val t.isLt).1 (ix2 p d)
      = rowValue (hid m c) (msk m c) (wgt m c) (wup m c) (wdn m c) (blockRow t.val p) d := by
  have hN := point_lt t
  have h0 : ¬t.val % 22 = 0 := by omega
  have hq : t.val = 22 * (t.val / 22) + 21 := by omega
  -- the output block is what the scratch block holds: the running total at the closing step
  have e1 : (outsAt0 m c t.val t.isLt).1 (ix2 p d) = runTotal (contrib m c p d) t.val := by
    rw [← scratch_eq m c p d t.val t.isLt]
    exact (congrFun (out_close m c t h0 h21) (ix2 p d)).trans (congrFun (scratch_close m c t h0 h21) (ix2 p d)).symm
  have e2 : runTotal (contrib m c p d) t.val
      = ∑ i ∈ Finset.range 22, contrib m c p d (22 * (t.val / 22) + i) := by
    have h := runTotal_eq_sum (contrib m c p d) (t.val / 22) 21 (by decide)
    rwa [← hq] at h
  -- inside the group the token block is the same; name the block's parts
  obtain ⟨P, hP⟩ : ∃ P : Fin 2 → Fin 11 → EReal,
      ∀ e ff, P e ff = part (hid m c) (wgt m c) (wup m c) (wdn m c) e ff (blockRow t.val p) d := ⟨_, fun _ _ => rfl⟩
  have hrow : ∀ i ∈ Finset.range 22, contrib m c p d (22 * (t.val / 22) + i)
      = P (stepE (22 * (t.val / 22) + i)) (stepF (22 * (t.val / 22) + i))
        * ind (msk m c (ix2 (rb (blockRow t.val p)) (rs (blockRow t.val p)))) (stepE (22 * (t.val / 22) + i)) := by
    intro i hi
    have hi' : i < 22 := Finset.mem_range.mp hi
    have hb : blockRow (22 * (t.val / 22) + i) p = blockRow t.val p := Fin.ext (by
      show (22 * (t.val / 22) + i) / 22 % 32 * 512 + p.val = t.val / 22 % 32 * 512 + p.val
      omega)
    unfold contrib
    rw [hb, hP]
  rw [e1, e2, Finset.sum_congr rfl hrow, run_eq_select P _ (hmask c _) (t.val / 22)]
  unfold rowValue
  rw [expert_eq_sum_part, expert_eq_sum_part]
  simp only [hP]

end Cert.KernelIdeal.Accum

end
-- ==== Proof.Result.lean ====
/-
  From the blocks to the result array.

  The steps write the output one block of 512 rows at a time, and only at the closing step of each group of 22
  (`n % 22 = 21`), where the block written is token block `n / 22`. Given that what is written there is the layer's
  value on the block's rows, the flat `[16384, 2048]` array ends holding the layer's value on every row: row `r` lies
  in token block `r / 512`, whose closing step is `22 · (r / 512) + 21`, and the 32 blocks tile the array. The result
  is that array read as `[4, 4096, 2048]`: entry `(b, s, d)` is the flat entry `(b · 4096 + s, d)`, the layer's value
  at token `(b, s)`. The five argument arrays are not written.
-/
import proofs.«117907_j41738492183144_1_alg».proof.Proof.Gen.KernelIdeal.Frame
import proofs.«117907_j41738492183144_1_alg».proof.Proof.Blocks
import proofs.«117907_j41738492183144_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Routed

variable (m : (ℓ : Loc nD τ sig) → Buf (Elt Ideal) ℓ) (ρ : Dev nD → PrngReg)

/-- The layer's value on rows, as a `[16384, 2048]` array. -/
abbrev flat (c : Dev nD) : S16384x2048.Idx → EReal := fun j =>
  rowValue (m ((c : Thread nD τ).loc main_arg0)) (m ((c : Thread nD τ).loc main_arg1)) (m ((c : Thread nD τ).loc main_arg2))
    (m ((c : Thread nD τ).loc main_arg3)) (m ((c : Thread nD τ).loc main_arg4)) ⟨(j 0).val, (j 0).isLt⟩ ⟨(j 1).val, (j 1).isLt⟩

/-- The flat array at an index whose coordinates are row `r` and column `d`. -/
theorem flat_apply (c : Dev nD) (j : S16384x2048.Idx) (r : Fin 16384) (d : Fin 2048)
    (hr : (j 0).val = r.val) (hd : (j 1).val = d.val) :
    flat m c j = rowValue (m ((c : Thread nD τ).loc main_arg0)) (m ((c : Thread nD τ).loc main_arg1))
      (m ((c : Thread nD τ).loc main_arg2)) (m ((c : Thread nD τ).loc main_arg3)) (m ((c : Thread nD τ).loc main_arg4)) r d := by
  have e0 : (⟨(j 0).val, (j 0).isLt⟩ : Fin 16384) = r := Fin.ext hr
  have e1 : (⟨(j 1).val, (j 1).isLt⟩ : Fin 2048) = d := Fin.ext hd
  show rowValue _ _ _ _ _ ⟨(j 0).val, (j 0).isLt⟩ ⟨(j 1).val, (j 1).isLt⟩ = _
  rw [e0, e1]

/-- What a closing step writes back is its block of the flat array: row `p` of the block is row
    `(n / 22) · 512 + p` of the array, column `d` is column `d`. -/
theorem flushed_eq
    (hout : ∀ (c : Dev nD) (t : Fin cfg0.N), t.val % 22 = 21 → ∀ (p : Fin 512) (d : Fin 2048),
      (outsAt0 m c t.val t.isLt).1 (ix2 p d)
        = rowValue (m ((c : Thread nD τ).loc main_arg0)) (m ((c : Thread nD τ).loc main_arg1)) (m ((c : Thread nD τ).loc main_arg2)) (m ((c : Thread nD τ).loc main_arg3)) (m ((c : Thread nD τ).loc main_arg4)) (Blocks.blockRow t.val p) d)
    (c : Dev nD) (t : Fin cfg0.N) (hf : (cfg0.win 5).flush t = true) :
    (dats m 0 c).flushed 5 t = ((cfg0.win 5).blk t).view.read (Elt Ideal) (flat m c) := by
  have hN := Blocks.point_lt t
  have h21 := (flush0_5 t).mp hf
  show (cfg0.win 5).cut (grid0.coords t) ((dats m 0 c).after 5 t) = _
  rw [after0_5]
  funext y
  obtain ⟨p, d, rfl⟩ : ∃ (p : Fin 512) (d : Fin 2048), y = ix2 p d := ⟨y 0, y 1, eq_ix2 y⟩
  rw [View.read_apply]
  show (outsAt0 m c t.val t.isLt).1 (ix2 p d) = flat m c (((cfg0.win 5).blk t).view.emb (ix2 p d))
  rw [hout c t h21 p d]
  refine (flat_apply m c (((cfg0.win 5).blk t).view.emb (ix2 p d)) (Blocks.blockRow t.val p) d ?_ ?_).symm
  · show win0_5.index t (0 : Fin 2) * 512 + 1 * p.val = t.val / 22 % 32 * 512 + p.val
    rw [(Blocks.index_out t).1]; omega
  · show win0_5.index t (1 : Fin 2) * 2048 + 1 * d.val = d.val
    rw [(Blocks.index_out t).2]; omega

/-- An index of the flat array is in step `t`'s block iff each coordinate is in the block's range on its axis. -/
theorem mem_blk (t : Fin cfg0.N) (i : S16384x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v6).slice (win0_5.rect t)).set ↔ _
  rw [View.set_slice_whole, Rect.mem_set_unit]
  exact Iff.rfl

/-- Row `r` lies in the block of the closing step of token block `r / 512`. -/
theorem cover (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  obtain ⟨t, ht⟩ : ∃ t : Fin cfg0.N, t.val = 22 * ((i 0).val / 512) + 21 :=
    ⟨⟨22 * ((i 0).val / 512) + 21, by rw [show cfg0.N = 704 from N_0]; omega⟩, rfl⟩
  refine ⟨t, (flush0_5 t).mpr (by omega), ?_⟩
  rw [mem_blk]
  intro a
  match a with
  | ⟨0, _⟩ =>
    show win0_5.index t (0 : Fin 2) * 512 ≤ (i 0).val ∧ (i 0).val < win0_5.index t (0 : Fin 2) * 512 + 512
    rw [(Blocks.index_out t).1]; omega
  | ⟨1, _⟩ =>
    show win0_5.index t (1 : Fin 2) * 2048 ≤ (i 1).val ∧ (i 1).val < win0_5.index t (1 : Fin 2) * 2048 + 2048
    rw [(Blocks.index_out t).2]; omega

/-- After the last step the flat array holds the layer's value on rows. -/
theorem final (hout : ∀ (c : Dev nD) (t : Fin cfg0.N), t.val % 22 = 21 → ∀ (p : Fin 512) (d : Fin 2048),
      (outsAt0 m c t.val t.isLt).1 (ix2 p d)
        = rowValue (m ((c : Thread nD τ).loc main_arg0)) (m ((c : Thread nD τ).loc main_arg1)) (m ((c : Thread nD τ).loc main_arg2)) (m ((c : Thread nD τ).loc main_arg3)) (m ((c : Thread nD τ).loc main_arg4)) (Blocks.blockRow t.val p) d)
    (c : Dev nD) : (dats m 0 c).arrAt 5 cfg0.N = flat m c :=
  (dats m 0 c).arrAt_eq_of_cover 5 (flat m c) (fun t hf => flushed_eq m hout c t hf) cover

/-- Row `b · 4096 + s` of the flat array is token `(b, s)`: the reshaped array is the layer's value. -/
theorem tail_value (hout : ∀ (c : Dev nD) (t : Fin cfg0.N), t.val % 22 = 21 → ∀ (p : Fin 512) (d : Fin 2048),
      (outsAt0 m c t.val t.isLt).1 (ix2 p d)
        = rowValue (m ((c : Thread nD τ).loc main_arg0)) (m ((c : Thread nD τ).loc main_arg1)) (m ((c : Thread nD τ).loc main_arg2)) (m ((c : Thread nD τ).loc main_arg3)) (m ((c : Thread nD τ).loc main_arg4)) (Blocks.blockRow t.val p) d)
    (c : Dev nD) : Pipeline.afterTail₀ cfgs (dats m) 0 (V0 m) [hostOps1] c main_v7 = value (m ((c : Thread nD τ).loc main_arg0)) (m ((c : Thread nD τ).loc main_arg1)) (m ((c : Thread nD τ).loc main_arg2)) (m ((c : Thread nD τ).loc main_arg3)) (m ((c : Thread nD τ).loc main_arg4)) := by
  have hw : Pipeline.withArrays (cfgs 0).spec c (V0 m c) (fun w => (dats m 0 c).arrAt w (cfgs 0).N) (Proc.devRef .tc main_v6)
      = flat m c :=
    (Pipeline.withArrays_arr spec0 launch0.win.arr_inj c _ _ 5).trans (final m hout c)
  unfold Pipeline.afterTail₀
  show StableHlo.after hostOps1 _ (Proc.devRef .tc main_v7) = _
  after_results
  rw [hw]
  funext i
  show shapeCast S4x4096x2048 (flat m c) shapeCasts_S16384x2048_S4x4096x2048 i = _
  refine (shapeCast_apply (s := S16384x2048) (t := S4x4096x2048) (flat m c) shapeCasts_S16384x2048_S4x4096x2048 i
    (ix2 (rowOf (i 0) (i 1)) (i 2)) ?_).trans rfl
  rw [Shape.rowMajor_val_two, Shape.rowMajor_val_three]
  rfl

/-- THE RUN, READ: the result array ends at the layer's value of the argument arrays, which are unchanged. -/
theorem run_value (hout : ∀ (c : Dev nD) (t : Fin cfg0.N), t.val % 22 = 21 → ∀ (p : Fin 512) (d : Fin 2048),
      (outsAt0 m c t.val t.isLt).1 (ix2 p d)
        = rowValue (m ((c : Thread nD τ).loc main_arg0)) (m ((c : Thread nD τ).loc main_arg1)) (m ((c : Thread nD τ).loc main_arg2)) (m ((c : Thread nD τ).loc main_arg3)) (m ((c : Thread nD τ).loc main_arg4)) (Blocks.blockRow t.val p) d) :
    θ_run defs (onTc (τ := τ) (main (F := Ideal))) ⟨m, fun _ => 0, ρ⟩ fun r => ∀ c : Dev nD,
      r.2.mem ((c : Thread nD τ).loc main_v7) = value (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (tail_value m hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The routed SwiGLU layer: a blocked kernel against its dense reference, on the extended reals.

  Both programs compute, for every token, the output `Σ_f ((g_f · σ(g_f)) · u_f) · W_down[e, f, ·]` of the expert `e`
  its routing word selects (`Proof/Spec.lean`). The reference computes both experts' outputs in full and selects
  (`Proof/RefValue.lean`). The kernel walks 32 token blocks × 2 experts × 11 slices of the hidden axis, adds each
  slice's partial output times the indicator `[routing word = expert]` into a running total, and writes the total
  out after the 22 steps of a token block (`Proof/Payload.lean`, `Proof/Blocks.lean`, `Proof/Pieces.lean`,
  `Proof/Accum.lean`, `Proof/Result.lean`). The two agree when every routing word is `0` or `1`, which the
  precondition states (`Proof/MaskDomain.lean`): an indicator is then `0` or `1`, `a · 0 = 0` and `a · 1 = a` for every
  extended real, and sums re-bracket freely — no finiteness is used.

  No operation of the kernel was rewritten for the reading on the extended reals: the idealized kernel is the
  kernel's own text, and the statement that relates the two is the trivial one.
-/
import proofs.«117907_j41738492183144_1_alg».proof.Defs
import proofs.«117907_j41738492183144_1_alg».proof.Proof.Gen.Kernel
import proofs.«117907_j41738492183144_1_alg».proof.Proof.Gen.Kernel.Frame
import proofs.«117907_j41738492183144_1_alg».proof.Proof.Gen.KernelIdeal
import proofs.«117907_j41738492183144_1_alg».proof.Proof.Gen.KernelIdeal.Frame
import proofs.«117907_j41738492183144_1_alg».proof.Proof.Gen.ReferenceIdeal
import proofs.«117907_j41738492183144_1_alg».proof.Proof.Gen.ReferenceIdeal.Run
import proofs.«117907_j41738492183144_1_alg».proof.Proof.Gen.ReferenceIdeal.Read
import proofs.«117907_j41738492183144_1_alg».proof.Proof.Gen.Pre_finite_inputs
import proofs.«117907_j41738492183144_1_alg».proof.Proof.MaskDomain
import proofs.«117907_j41738492183144_1_alg».proof.Proof.RefValue
import proofs.«117907_j41738492183144_1_alg».proof.Proof.Accum
import proofs.«117907_j41738492183144_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the layer's value of the argument arrays. -/
theorem algebraic : Cert.algebraic_KernelIdeal_ReferenceIdeal := by
  intro m ρ m' ρ' hpre hagree
  have hmask : ∀ (c : Dev Cert.KernelIdeal.nD) (i : Cert.KernelIdeal.S4x4096.Idx),
      Cert.KernelIdeal.Accum.msk m c i = 0#32 ∨ Cert.KernelIdeal.Accum.msk m c i = 1#32 :=
    fun c i => Cert.Routed.Domain.mask_binary _ _ _ _ _ (hpre c) i
  refine ⟨fun c => Cert.Routed.value (Cert.KernelIdeal.Accum.hid m c) (Cert.KernelIdeal.Accum.msk m c)
      (Cert.KernelIdeal.Accum.wgt m c) (Cert.KernelIdeal.Accum.wup m c) (Cert.KernelIdeal.Accum.wdn m c),
    Cert.KernelIdeal.Result.run_value m ρ (Cert.KernelIdeal.Accum.out_value m hmask), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.RefValue.ref_eq_value,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
